-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x640 : Shape := ⟨3, ![4, 64, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x640 : S_.BroadcastsInDim S4x64x640 (![] : Fin 0 → Fin S4x64x640.rank)
  reducesTo_S4x64x640_S_d0_1_2 : S4x64x640.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x640 : S_.BroadcastsInDim S640x640 (![] : Fin 0 → Fin S640x640.rank)
  reducesTo_S640x640_S_d0_1 : S640x640.ReducesTo [0, 1] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x640 .f32) (main_arg5 : FVec F S640 .f32) (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x640 .f32 := Host.absf main_arg4
  let main_cst_6 : FVec F S_ .f32 := constant S_ .f32 0x7F800000#32
  let main_v20 : FVec F S640x640 .f32 := broadcastInDim S640x640 ![] bcast_S_S640x640 main_cst_6
  let main_v21 : IVec S640x640 1 := cmpf .olt main_v19 main_v20
  let main_c_7 : IVec S_ 1 := constantI S_ 1 1#1
  let main_v22 : IVec S_ 1 := (fun x v => Host.reduce IntOp.andi x v reducesTo_S640x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1024 .f32 := Host.absf main_arg6
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x640 .f32) (main_arg2 : FVec F S512x640 .f32) (main_arg3 : FVec F S640 .f32) (main_arg4 : FVec F S640x640 .f32) (main_arg5 : FVec F S640 .f32) (main_arg6 : FVec F S640x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x640 .f32 := Host.absf main_arg1
  let main_cst_0 : FVec F S_ .f32 := constant S_ .f32 0x7F800000#32
  let main_v5 : FVec F S4x64x640 .f32 := broadcastInDim S4x64x640 ![] bcast_S_S4x64x640 main_cst_0
  let main_v6 : IVec S4x64x640 1 := cmpf .olt main_v4 main_v5
  let main_c_1 : IVec S_ 1 := constantI S_ 1 1#1
  let main_v7 : IVec S_ 1 := (fun x v => Host.reduce IntOp.andi x v reducesTo_S4x64x640_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x640 : Shape := ⟨3, ![4, 64, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S4x256x64x1024 : Shape := ⟨4, ![4, 256, 64, 1024]⟩
abbrev S1x32x512 : Shape := ⟨3, ![1, 32, 512]⟩
abbrev S1x64x640 : Shape := ⟨3, ![1, 64, 640]⟩
abbrev S1x32x64x1024 : Shape := ⟨4, ![1, 32, 64, 1024]⟩
abbrev S32x512 : Shape := ⟨2, ![32, 512]⟩
abbrev S64x640 : Shape := ⟨2, ![64, 640]⟩
abbrev S32x640 : Shape := ⟨2, ![32, 640]⟩
abbrev S1x640 : Shape := ⟨2, ![1, 640]⟩
abbrev S32x1x640 : Shape := ⟨3, ![32, 1, 640]⟩
abbrev S32x64x640 : Shape := ⟨3, ![32, 64, 640]⟩
abbrev S2048x640 : Shape := ⟨2, ![2048, 640]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4x256x512, .f32⟩
  | .hbm, ⟨1, _⟩ => ⟨S4x64x640, .f32⟩
  | .hbm, ⟨2, _⟩ => ⟨S512x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x256x512, .bf16⟩
  | .hbm, ⟨9, _⟩ => ⟨S4x64x640, .bf16⟩
  | .hbm, ⟨10, _⟩ => ⟨S512x640, .bf16⟩
  | .hbm, ⟨11, _⟩ => ⟨S640x640, .bf16⟩
  | .hbm, ⟨12, _⟩ => ⟨S640x1024, .bf16⟩
  | .hbm, ⟨13, _⟩ => ⟨S4x256x64x1024, .f32⟩
  | .local _ .vmem, ⟨0, _⟩ => ⟨S1x32x512, .bf16⟩
  | .local _ .vmem, ⟨1, _⟩ => ⟨S1x32x512, .bf16⟩
  | .local _ .vmem, ⟨2, _⟩ => ⟨S1x64x640, .bf16⟩
  | .local _ .vmem, ⟨3, _⟩ => ⟨S1x64x640, .bf16⟩
  | .local _ .vmem, ⟨4, _⟩ => ⟨S512x640, .bf16⟩
  | .local _ .vmem, ⟨5, _⟩ => ⟨S640, .f32⟩
  | .local _ .vmem, ⟨6, _⟩ => ⟨S640x640, .bf16⟩
  | .local _ .vmem, ⟨7, _⟩ => ⟨S640, .f32⟩
  | .local _ .vmem, ⟨8, _⟩ => ⟨S640x1024, .bf16⟩
  | .local _ .vmem, ⟨9, _⟩ => ⟨S1024, .f32⟩
  | .local _ .vmem, ⟨10, _⟩ => ⟨S1x32x64x1024, .f32⟩
  | .local _ .vmem, ⟨11, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S640_S640_0 : ∀ a, (![0] : Fin 1 → Nat) a + S640.size a ≤ S640.size a
  h_S640 : 0 < S640.numel
  inb_S1024_S1024_0 : ∀ a, (![0] : Fin 1 → Nat) a + S1024.size a ≤ S1024.size a
  h_S1024 : 0 < S1024.numel
  shapeCasts_S640_S1x640 : S640.ShapeCasts S1x640
  broadcasts_S1x640_S32x640 : S1x640.Broadcasts S32x640
  broadcasts_S1x640_S64x640 : S1x640.Broadcasts S64x640
  shapeCasts_S32x640_S32x1x640 : S32x640.ShapeCasts S32x1x640
  shapeCasts_S64x640_S1x64x640 : S64x640.ShapeCasts S1x64x640
  broadcasts_S32x1x640_S32x64x640 : S32x1x640.Broadcasts S32x64x640
  broadcasts_S1x64x640_S32x64x640 : S1x64x640.Broadcasts S32x64x640
  shapeCasts_S32x64x640_S2048x640 : S32x64x640.ShapeCasts S2048x640
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S32x512_S512x640_S32x640_1_0_0_1_n_n_wf : DotDims.WF S32x512 S512x640 S32x640 [1] [0] [0] [1] [] []
  dot_S64x640_S640x640_S64x640_1_0_0_1_n_n_wf : DotDims.WF S64x640 S640x640 S64x640 [1] [0] [0] [1] [] []
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .bf16 = 32 ∨ (Rect.block (s := S4x256x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S4x64x640.size a
  hwx0_1 : ∀ i : grid0.Coords, EltTy.bits .bf16 = 32 ∨ (Rect.block (s := S4x64x640) S1x64x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x640.size a ≤ S640x640.size a
  hwx0_4 : ∀ i : grid0.Coords, EltTy.bits .bf16 = 32 ∨ (Rect.block (s := S640x640) S640x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .bf16 = 32 ∨ (Rect.block (s := S640x1024) S640x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x64x1024.size a ≤ S4x256x64x1024.size a
  hwx0_8 : ∀ i : grid0.Coords, EltTy.bits .f32 = 32 ∨ (Rect.block (s := S4x256x64x1024) S1x32x64x1024.size (cc0_transform_8 i) (hinb0_8 i)).WholeWords (EltTy.packing .f32)

variable [Facts₀]

def dot_S32x512_S512x640_S32x640_1_0_0_1_n_n : DotDims S32x512 S512x640 S32x640 where
  lhsContracting := [1]
  rhsContracting := [0]
  lhsNonContracting := [0]
  rhsNonContracting := [1]
  lhsBatch := []
  rhsBatch := []
  wf := dot_S32x512_S512x640_S32x640_1_0_0_1_n_n_wf
def dot_S64x640_S640x640_S64x640_1_0_0_1_n_n : DotDims S64x640 S640x640 S64x640 where
  lhsContracting := [1]
  rhsContracting := [0]
  lhsNonContracting := [0]
  rhsNonContracting := [1]
  lhsBatch := []
  rhsBatch := []
  wf := dot_S64x640_S640x640_S64x640_1_0_0_1_n_n_wf
def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S640x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x32x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x640 : Shape := ⟨3, ![4, 64, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S4x256x640 : Shape := ⟨3, ![4, 256, 640]⟩
abbrev S1x1x640 : Shape := ⟨3, ![1, 1, 640]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x1024 : Shape := ⟨4, ![4, 256, 64, 1024]⟩
abbrev S1x1x1x1024 : Shape := ⟨4, ![1, 1, 1, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x640, .f32⟩
  | .hbm, ⟨2, _⟩ => ⟨S512x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x256x640, .f32⟩
  | .hbm, ⟨9, _⟩ => ⟨S1x1x640, .f32⟩
  | .hbm, ⟨10, _⟩ => ⟨S4x256x640, .f32⟩
  | .hbm, ⟨11, _⟩ => ⟨S4x256x640, .f32⟩
  | .hbm, ⟨12, _⟩ => ⟨S4x64x640, .f32⟩
  | .hbm, ⟨13, _⟩ => ⟨S1x1x640, .f32⟩
  | .hbm, ⟨14, _⟩ => ⟨S4x64x640, .f32⟩
  | .hbm, ⟨15, _⟩ => ⟨S4x64x640, .f32⟩
  | .hbm, ⟨16, _⟩ => ⟨S4x256x1x640, .f32⟩
  | .hbm, ⟨17, _⟩ => ⟨S4x1x64x640, .f32⟩
  | .hbm, ⟨18, _⟩ => ⟨S4x256x64x640, .f32⟩
  | .hbm, ⟨19, _⟩ => ⟨S4x256x64x640, .f32⟩
  | .hbm, ⟨20, _⟩ => ⟨S4x256x64x640, .f32⟩
  | .hbm, ⟨21, _⟩ => ⟨S4x256x64x640, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x256x64x1024, .f32⟩
  | .hbm, ⟨30, _⟩ => ⟨S4x256x64x1024, .f32⟩
  | .hbm, ⟨31, _⟩ => ⟨S_, .f32⟩
  | .hbm, ⟨32, _⟩ => ⟨S4x256x64x1024, .f32⟩
  | .hbm, ⟨33, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x64x640_0_1_2 : S1x1x640.BroadcastsInDim S4x64x640 (![0, 1, 2] : Fin 3 → Fin S4x64x640.rank)
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  bcast_S_S4x256x64x1024 : S_.BroadcastsInDim S4x256x64x1024 (![] : Fin 0 → Fin S4x256x64x1024.rank)
  dot_S4x256x512_S512x640_S4x256x640_2_0_01_1_n_n_wf : DotDims.WF S4x256x512 S512x640 S4x256x640 [2] [0] [0, 1] [1] [] []
  dot_S4x64x640_S640x640_S4x64x640_2_0_01_1_n_n_wf : DotDims.WF S4x64x640 S640x640 S4x64x640 [2] [0] [0, 1] [1] [] []
  dot_S4x256x64x640_S640x1024_S4x256x64x1024_3_0_012_1_n_n_wf : DotDims.WF S4x256x64x640 S640x1024 S4x256x64x1024 [3] [0] [0, 1, 2] [1] [] []

variable [Facts₀]

def dot_S4x256x512_S512x640_S4x256x640_2_0_01_1_n_n : DotDims S4x256x512 S512x640 S4x256x640 where
  lhsContracting := [2]
  rhsContracting := [0]
  lhsNonContracting := [0, 1]
  rhsNonContracting := [1]
  lhsBatch := []
  rhsBatch := []
  wf := dot_S4x256x512_S512x640_S4x256x640_2_0_01_1_n_n_wf
def dot_S4x64x640_S640x640_S4x64x640_2_0_01_1_n_n : DotDims S4x64x640 S640x640 S4x64x640 where
  lhsContracting := [2]
  rhsContracting := [0]
  lhsNonContracting := [0, 1]
  rhsNonContracting := [1]
  lhsBatch := []
  rhsBatch := []
  wf := dot_S4x64x640_S640x640_S4x64x640_2_0_01_1_n_n_wf
def dot_S4x256x64x640_S640x1024_S4x256x64x1024_3_0_012_1_n_n : DotDims S4x256x64x640 S640x1024 S4x256x64x1024 where
  lhsContracting := [3]
  rhsContracting := [0]
  lhsNonContracting := [0, 1, 2]
  rhsNonContracting := [1]
  lhsBatch := []
  rhsBatch := []
  wf := dot_S4x256x64x640_S640x1024_S4x256x64x1024_3_0_012_1_n_n_wf

class Facts : Prop extends Facts₀ where

variable [Facts]
-- ==== Proof.JointSpec.lean ====
/-
  The function both programs compute, written once over the extended reals.

  An output cell is addressed by a batch `b`, an encoder frame `t`, a predictor step `u` and a vocabulary entry `v`.
  It depends on ONE row of the encoder output (frame `t` of batch `b`, 512 numbers) and ONE row of the predictor
  output (step `u` of batch `b`, 640 numbers): each row is projected to 640 joint features (a matrix product plus a
  bias), the two projections are added, `tanh` is applied feature by feature, the 640 activations are projected to the
  vocabulary (a matrix product plus a bias), and the logit is clamped to [-15, 15].

  `cell` states this for an arbitrary pair of rows, so that it can be read both inside one block of the kernel's
  grid (the rows come from the block) and on the whole arrays (the rows come from the arrays): `joint` is the latter.
  The two clamp bounds are kept as the 32-bit patterns both programs print; they are never evaluated.
-/
import Idealize.ShloMosaic.PureOps.Ideal
import Idealize.ShloMosaic.Lib.ValueIdx

noncomputable section

namespace Cert.Joint

open Idealize.ShloMosaic Idealize.ShloMosaic.ValueIdx

/-- A row of `K` numbers times a `K × 640` matrix, plus a bias, at feature `j`. -/
def proj {K : ℕ} (row : Fin K → EReal) (W : (⟨2, ![K, 640]⟩ : Shape).Idx → EReal)
    (bias : (⟨1, ![640]⟩ : Shape).Idx → EReal) (j : Fin 640) : EReal :=
  (∑ k : Fin K, row k * W (ix2 k j)) + bias (ix1 j)

/-- The joint activation at feature `j`: `tanh` of the sum of the two projections. -/
def act (encRow : Fin 512 → EReal) (predRow : Fin 640 → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (j : Fin 640) : EReal :=
  Ideal.tanh (proj encRow Wenc benc j + proj predRow Wpred bpred j)

/-- The clamp to [-15, 15]: the larger of -15 and `x`, then the smaller of 15 and that. -/
def clamp15 (x : EReal) : EReal :=
  min (Ideal.ofBits .f32 0x41700000#32) (max (Ideal.ofBits .f32 0xC1700000#32) x)

/-- One output cell from the two rows it depends on: the activations projected to vocabulary entry `v`, plus
    the bias, clamped. -/
def cell (encRow : Fin 512 → EReal) (predRow : Fin 640 → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (Wout : (⟨2, ![640, 1024]⟩ : Shape).Idx → EReal) (bout : (⟨1, ![1024]⟩ : Shape).Idx → EReal)
    (v : Fin 1024) : EReal :=
  clamp15 ((∑ j : Fin 640, act encRow predRow Wenc benc Wpred bpred j * Wout (ix2 j v)) + bout (ix1 v))

/-- The whole result array: cell `(b, t, u, v)` from frame `t` and step `u` of batch `b`. -/
def joint (enc : (⟨3, ![4, 256, 512]⟩ : Shape).Idx → EReal) (pred : (⟨3, ![4, 64, 640]⟩ : Shape).Idx → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (Wout : (⟨2, ![640, 1024]⟩ : Shape).Idx → EReal) (bout : (⟨1, ![1024]⟩ : Shape).Idx → EReal) :
    (⟨4, ![4, 256, 64, 1024]⟩ : Shape).Idx → EReal :=
  fun i => cell (fun e => enc (ix3 (i 0) (i 1) e)) (fun p => pred (ix3 (i 0) (i 2) p))
    Wenc benc Wpred bpred Wout bout (i 3)

end Cert.Joint

end
-- ==== Proof.RefJoint.lean ====
/-
  The reference computes `joint`.

  The reference builds the result in stages over whole arrays: the two projections (a contraction over the last
  axis of the input, plus the bias broadcast along the other axes), their sum over all pairs (frame, step) by two
  broadcasts into a common rank-4 shape, `tanh`, the vocabulary projection (a contraction over the feature axis,
  plus the bias broadcast), and the clamp. Read at an index written by its coordinates, every broadcast only forgets
  or repeats coordinates, so each stage at `(b, t, j)`, `(b, u, j)`, `(b, t, u, j)`, `(b, t, u, v)` is the
  corresponding piece of the cell formula on row `t` of the encoder output and row `u` of the predictor output.
-/
import proofs.«107802_j83648783057727_1_alg».proof.Proof.Gen.ReferenceIdeal.Read
import proofs.«107802_j83648783057727_1_alg».proof.Proof.JointSpec

noncomputable section

namespace Cert.ReferenceIdeal.RefValue

open Cert.ReferenceIdeal Cert.ReferenceIdeal.Read Idealize.ShloMosaic Idealize.ShloMosaic.ValueIdx Cert.Joint

variable (x0 : (⟨S4x256x512, .f32⟩ : BufTy).Contents (Elt Ideal)) (x1 : (⟨S4x64x640, .f32⟩ : BufTy).Contents (Elt Ideal))
  (x2 : (⟨S512x640, .f32⟩ : BufTy).Contents (Elt Ideal)) (x3 : (⟨S640, .f32⟩ : BufTy).Contents (Elt Ideal))
  (x4 : (⟨S640x640, .f32⟩ : BufTy).Contents (Elt Ideal)) (x5 : (⟨S640, .f32⟩ : BufTy).Contents (Elt Ideal))
  (x6 : (⟨S640x1024, .f32⟩ : BufTy).Contents (Elt Ideal)) (x7 : (⟨S1024, .f32⟩ : BufTy).Contents (Elt Ideal))

/-- The encoder projection at `(b, t, j)`: row `t` of batch `b` times the weights, plus the bias at `j`. -/
theorem enc_stage (b : Fin 4) (t : Fin 256) (j : Fin 640) :
    val_main_v3 (F := Ideal) x0 x2 x3 (ix3 b t j) = proj (fun e => x0 (ix3 b t e)) x2 x3 j := by
  have el : ∀ k : Fin 512, lidx_main_v0 (ix3 b t j) k = ix3 b t k := fun k => funext fun a => by
    match a with | ⟨0, _⟩ => rfl | ⟨1, _⟩ => rfl | ⟨2, _⟩ => rfl
  have er : ∀ k : Fin 512, ridx_main_v0 (ix3 b t j) k = ix2 k j := fun k => funext fun a => by
    match a with | ⟨0, _⟩ => rfl | ⟨1, _⟩ => rfl
  have eb : idx_main_v1 (idx_main_v2 (ix3 b t j)) = ix1 j := funext fun a => by
    match a with | ⟨0, _⟩ => rfl
  rw [val_main_v3_apply, val_main_v0_apply, val_main_v2_apply, val_main_v1_apply, eb]
  simp only [el, er]
  rfl

/-- The predictor projection at `(b, u, j)`: row `u` of batch `b` times the weights, plus the bias at `j`. -/
theorem pred_stage (b : Fin 4) (u : Fin 64) (j : Fin 640) :
    val_main_v7 (F := Ideal) x1 x4 x5 (ix3 b u j) = proj (fun p => x1 (ix3 b u p)) x4 x5 j := by
  have el : ∀ k : Fin 640, lidx_main_v4 (ix3 b u j) k = ix3 b u k := fun k => funext fun a => by
    match a with | ⟨0, _⟩ => rfl | ⟨1, _⟩ => rfl | ⟨2, _⟩ => rfl
  have er : ∀ k : Fin 640, ridx_main_v4 (ix3 b u j) k = ix2 k j := fun k => funext fun a => by
    match a with | ⟨0, _⟩ => rfl | ⟨1, _⟩ => rfl
  have eb : idx_main_v5 (idx_main_v6 (ix3 b u j)) = ix1 j := funext fun a => by
    match a with | ⟨0, _⟩ => rfl
  rw [val_main_v7_apply, val_main_v4_apply, val_main_v6_apply, val_main_v5_apply, eb]
  simp only [el, er]
  rfl

/-- The activation at `(b, t, u, j)`: the two broadcasts pair frame `t` with step `u`. -/
theorem act_stage (b : Fin 4) (t : Fin 256) (u : Fin 64) (j : Fin 640) :
    val_main_v13 (F := Ideal) x0 x1 x2 x3 x4 x5 (ix4 b t u j)
      = act (fun e => x0 (ix3 b t e)) (fun p => x1 (ix3 b u p)) x2 x3 x4 x5 j := by
  have ee : idx_main_v8 (idx_main_v10 (ix4 b t u j)) = ix3 b t j := funext fun a => by
    match a with | ⟨0, _⟩ => rfl | ⟨1, _⟩ => rfl | ⟨2, _⟩ => rfl
  have ep : idx_main_v9 (idx_main_v11 (ix4 b t u j)) = ix3 b u j := funext fun a => by
    match a with | ⟨0, _⟩ => rfl | ⟨1, _⟩ => rfl | ⟨2, _⟩ => rfl
  rw [val_main_v13_apply, val_main_v12_apply, val_main_v10_apply, val_main_v8_apply, val_main_v11_apply,
    val_main_v9_apply, ee, ep, enc_stage, pred_stage]
  rfl

/-- The reference's result array is `joint` of its arguments. -/
theorem result_eq_joint : val_main_v18 (F := Ideal) x0 x1 x2 x3 x4 x5 x6 x7 = joint x0 x1 x2 x3 x4 x5 x6 x7 := by
  funext i
  obtain ⟨b, t, u, v, rfl⟩ : ∃ (b : Fin 4) (t : Fin 256) (u : Fin 64) (v : Fin 1024), i = ix4 b t u v :=
    ⟨i 0, i 1, i 2, i 3, eq_ix4 i⟩
  have el : ∀ k : Fin 640, lidx_main_v14 (ix4 b t u v) k = ix4 b t u k := fun k => funext fun a => by
    match a with | ⟨0, _⟩ => rfl | ⟨1, _⟩ => rfl | ⟨2, _⟩ => rfl | ⟨3, _⟩ => rfl
  have er : ∀ k : Fin 640, ridx_main_v14 (ix4 b t u v) k = ix2 k v := fun k => funext fun a => by
    match a with | ⟨0, _⟩ => rfl | ⟨1, _⟩ => rfl
  have eb : idx_main_v15 (idx_main_v16 (ix4 b t u v)) = ix1 v := funext fun a => by
    match a with | ⟨0, _⟩ => rfl
  rw [val_main_v18_apply, val_main_call0_v4_apply, val_main_call0_v3_apply, val_main_cst_0_apply,
    val_main_call0_v2_apply, val_main_call0_v1_apply, val_main_call0_v0_apply, val_main_cst_apply,
    val_main_v17_apply, val_main_v14_apply, val_main_v16_apply, val_main_v15_apply, eb]
  simp only [el, er, act_stage]
  rfl

end Cert.ReferenceIdeal.RefValue

end
-- ==== Proof.LibPairwise.lean ====
/-
  Layout forms read at an index written by coordinates, for arrays that pair every row of one operand with every row of
  another: a middle unit axis added by a shape cast, and a unit axis (the middle one, or the leading one) filled by a
  broadcast. Each is the library's general lemma (a shape cast keeps the row-major position; a broadcast reads `0` on
  the operand's unit axes) at the shapes `[a, c]`, `[a, 1, c]`, `[1, b, c]`, `[a, b, c]`.
-/
import Idealize.ShloMosaic.Lib.Pipeline.Value
import Idealize.ShloMosaic.Lib.ValueIdx

namespace Cert.LibPairwise

open Idealize.ShloMosaic Idealize.ShloMosaic.ValueIdx

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`: every `j` sees
    the same row. (`hb`: the filled axis is a real one; the other two extents may be anything.) -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the whole operand. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibPairwise
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LibFlatten.lean ====
/-
  Two leading axes merged into one, or one split into two, by a shape cast, read at an index written by coordinates.

  A shape cast keeps the row-major position. Between `[a, b, c]` and `[n, c]` with `n = a · b`, position
  `((i · b) + j) · c + k` is row `r = i · b + j`, column `k`: the cast in either direction pairs `(i, j, k)` with
  `(r, k)`. The merged extent is a separate letter `n` so that the lemmas apply where it is printed as one numeral.
-/
import Idealize.ShloMosaic.Lib.Pipeline.Value
import Idealize.ShloMosaic.Lib.ValueIdx

namespace Cert.LibFlatten

open Idealize.ShloMosaic Idealize.ShloMosaic.ValueIdx

variable {α : Type}

/-- An `[a, b, c]` array cast to `[n, c]` reads, at `(r, k)` with `r = i · b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i · b + j`. -/
theorem shapeCast_nc_abc_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.LibFlatten
-- ==== Proof.KernelCell.lean ====
/-
  One grid point of the kernel computes the cell formula on its blocks.

  At a grid point the body holds a block of 32 encoder frames `[1, 32, 512]`, the 64 predictor steps of the same
  batch `[1, 64, 640]`, and the three weight matrices and three biases whole. It computes, in four stages:
  the encoder projection of the 32 frames `[32, 640]`; the predictor projection of the 64 steps `[64, 640]`; the
  activation of every pair (frame, step) `[32, 64, 640]` — each projection given a unit axis and broadcast against the
  other, added, `tanh` —; and the logits: the pairs flattened to 2048 rows, projected to the vocabulary, the bias added,
  the rows split back into (frame, step), and the clamp. On the extended reals the change of float format before the
  last product is the identity.

  Each stage is read at an index written by its coordinates: a product into the zero accumulator is the sum over the
  contracted axis, and every shape cast and broadcast only renames, forgets or repeats coordinates. Together they say:
  entry `(f, u, v)` of the body's result is `cell` on frame `f` of the encoder block and step `u` of the predictor block.
-/
import proofs.«107802_j83648783057727_1_alg».proof.Proof.Gen.KernelIdeal.Skeleton
import proofs.«107802_j83648783057727_1_alg».proof.Proof.JointSpec
import proofs.«107802_j83648783057727_1_alg».proof.Proof.LibPairwise
import proofs.«107802_j83648783057727_1_alg».proof.Proof.LibMatmulPlain
import proofs.«107802_j83648783057727_1_alg».proof.Proof.LibFlatten
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Cell

open Cert.KernelIdeal Cert.KernelIdeal.Gen Idealize.ShloMosaic Idealize.ShloMosaic.ValueIdx Cert.Joint
open Cert.LibPairwise Cert.LibMatmulPlain Cert.LibFlatten

/-! ## The four stages, as the body writes them -/

/-- The encoder projection of the block's 32 frames. -/
def encStage (P0 : Vec Ideal S1x32x512 .bf16) (P2 : Vec Ideal S512x640 .bf16) (P5 : Vec Ideal S640 .f32) :
    FVec Ideal S32x640 .f32 :=
  addf (matmul dot_S32x512_S512x640_S32x640_1_0_0_1_n_n none
      (shapeCast S32x512 P0 shapeCasts_S1x32x512_S32x512 : FVec Ideal S32x512 .bf16)
      (shapeCast S512x640 P2 shapeCasts_S512x640_S512x640 : FVec Ideal S512x640 .bf16) (constant S32x640 .f32 0x00000000#32))
    (broadcastTo S32x640 (shapeCast S1x640 P5 shapeCasts_S640_S1x640) broadcasts_S1x640_S32x640)

/-- The predictor projection of the block's 64 steps. -/
def predStage (P1 : Vec Ideal S1x64x640 .bf16) (P3 : Vec Ideal S640x640 .bf16) (P6 : Vec Ideal S640 .f32) :
    FVec Ideal S64x640 .f32 :=
  addf (matmul dot_S64x640_S640x640_S64x640_1_0_0_1_n_n none
      (shapeCast S64x640 P1 shapeCasts_S1x64x640_S64x640 : FVec Ideal S64x640 .bf16)
      (shapeCast S640x640 P3 shapeCasts_S640x640_S640x640 : FVec Ideal S640x640 .bf16) (constant S64x640 .f32 0x00000000#32))
    (broadcastTo S64x640 (shapeCast S1x640 P6 shapeCasts_S640_S1x640) broadcasts_S1x640_S64x640)

/-- The activation of every pair (frame, step). -/
def actStage (E : FVec Ideal S32x640 .f32) (Q : FVec Ideal S64x640 .f32) : FVec Ideal S32x64x640 .f32 :=
  tanh (addf
    (broadcastTo S32x64x640 (shapeCast S32x1x640 E shapeCasts_S32x640_S32x1x640) broadcasts_S32x1x640_S32x64x640)
    (broadcastTo S32x64x640 (shapeCast S1x64x640 Q shapeCasts_S64x640_S1x64x640) broadcasts_S1x64x640_S32x64x640))

/-- The clamped logits of every pair. -/
def outStage (A : FVec Ideal S32x64x640 .f32) (P4 : Vec Ideal S640x1024 .bf16) (P7 : Vec Ideal S1024 .f32) :
    FVec Ideal S32x64x1024 .f32 :=
  minimumf (broadcast S32x64x1024 (Scalar.ofBits .f32 0x41700000#32))
    (maximumf (broadcast S32x64x1024 (Scalar.ofBits .f32 0xC1700000#32))
      (shapeCast S32x64x1024
        (addf (matmul dot_S2048x640_S640x1024_S2048x1024_1_0_0_1_n_n none
            (shapeCast S2048x640 (truncf .bf16 A bitsLt_bf16_f32 : FVec Ideal S32x64x640 .bf16)
              shapeCasts_S32x64x640_S2048x640 : FVec Ideal S2048x640 .bf16)
            (shapeCast S640x1024 P4 shapeCasts_S640x1024_S640x1024 : FVec Ideal S640x1024 .bf16)
            (constant S2048x1024 .f32 0x00000000#32))
          (broadcastTo S2048x1024 (shapeCast S1x1024 P7 shapeCasts_S1024_S1x1024) broadcasts_S1x1024_S2048x1024))
        shapeCasts_S2048x1024_S32x64x1024))

/-- The body's result is the four stages composed. -/
theorem pay_eq_stages (P0 : Vec Ideal S1x32x512 .bf16) (P1 : Vec Ideal S1x64x640 .bf16) (P2 : Vec Ideal S512x640 .bf16)
    (P3 : Vec Ideal S640x640 .bf16) (P4 : Vec Ideal S640x1024 .bf16) (P5 : Vec Ideal S640 .f32) (P6 : Vec Ideal S640 .f32)
    (P7 : Vec Ideal S1024 .f32) :
    k0_pay2 (F := Ideal) P0 P1 P2 P3 P4 P5 P6 P7
      = outStage (actStage (encStage P0 P2 P5) (predStage P1 P3 P6)) P4 P7 := rfl

/-! ## Each stage at an index written by coordinates -/

/-- A bias vector `[n]` given a leading unit axis and broadcast over `a` rows reads its entry `c` in every row. -/
theorem bias_row_apply {a n : ℕ} (v : (⟨1, ![n]⟩ : Shape).Idx → EReal)
    (h : (⟨1, ![n]⟩ : Shape).ShapeCasts ⟨2, ![1, n]⟩) (h' : (⟨2, ![1, n]⟩ : Shape).Broadcasts ⟨2, ![a, n]⟩)
    (r : Fin a) (c : Fin n) :
    broadcastTo ⟨2, ![a, n]⟩ (shapeCast ⟨2, ![1, n]⟩ v h) h' (ix2 r c) = v (ix1 c) := by
  rw [broadcastTo_1b_ab_apply, shapeCast_a_1a_apply]

/-- The encoder projection at `(f, j)`: frame `f` of the block against the weights, plus the bias. -/
theorem encStage_apply (P0 : Vec Ideal S1x32x512 .bf16) (P2 : Vec Ideal S512x640 .bf16) (P5 : Vec Ideal S640 .f32)
    (f : Fin 32) (j : Fin 640) :
    encStage P0 P2 P5 (ix2 f j) = proj (fun e => P0 (ix3 (0 : Fin 1) f e)) P2 P5 j := by
  unfold encStage proj
  rw [addf_apply]
  refine congrArg₂ (· + ·) ?_ (bias_row_apply P5 _ _ f j)
  refine (matmul_plain_zero_apply none _ _ f j).trans (Finset.sum_congr rfl fun k _ => ?_)
  rw [shapeCast_1ab_ab_apply, shapeCast_self]

/-- The predictor projection at `(u, j)`: step `u` of the block against the weights, plus the bias. -/
theorem predStage_apply (P1 : Vec Ideal S1x64x640 .bf16) (P3 : Vec Ideal S640x640 .bf16) (P6 : Vec Ideal S640 .f32)
    (u : Fin 64) (j : Fin 640) :
    predStage P1 P3 P6 (ix2 u j) = proj (fun p => P1 (ix3 (0 : Fin 1) u p)) P3 P6 j := by
  unfold predStage proj
  rw [addf_apply]
  refine congrArg₂ (· + ·) ?_ (bias_row_apply P6 _ _ u j)
  refine (matmul_plain_zero_apply none _ _ u j).trans (Finset.sum_congr rfl fun k _ => ?_)
  rw [shapeCast_1ab_ab_apply, shapeCast_self]

/-- The activation at `(f, u, j)` pairs row `f` of the first projection with row `u` of the second. -/
theorem actStage_apply (E : FVec Ideal S32x640 .f32) (Q : FVec Ideal S64x640 .f32) (f : Fin 32) (u : Fin 64) (j : Fin 640) :
    actStage E Q (ix3 f u j) = Ideal.tanh (E (ix2 f j) + Q (ix2 u j)) := by
  unfold actStage
  show Ideal.tanh (_ + _) = _
  rw [broadcastTo_a1c_abc_apply, shapeCast_ac_a1c_apply, broadcastTo_1bc_abc_apply, shapeCast_ab_1ab_apply]

/-- The clamped logit at `(f, u, v)`: the 640 activations of the pair `(f, u)` against column `v`, plus the bias. -/
theorem outStage_apply (A : FVec Ideal S32x64x640 .f32) (P4 : Vec Ideal S640x1024 .bf16) (P7 : Vec Ideal S1024 .f32)
    (f : Fin 32) (u : Fin 64) (v : Fin 1024) :
    outStage A P4 P7 (ix3 f u v) = clamp15 ((∑ j : Fin 640, A (ix3 f u j) * P4 (ix2 j v)) + P7 (ix1 v)) := by
  have hr : f.val * 64 + u.val < 2048 := by have := f.isLt; have := u.isLt; omega
  unfold outStage clamp15
  rw [minimumf_apply, maximumf_apply, broadcast_apply, broadcast_apply]
  refine congrArg (fun x : EReal => min (Ideal.ofBits .f32 0x41700000#32) (max (Ideal.ofBits .f32 0xC1700000#32) x)) ?_
  rw [shapeCast_nc_abc_apply _ _ f u v ⟨f.val * 64 + u.val, hr⟩ rfl, addf_apply]
  refine congrArg₂ (· + ·) ?_ (bias_row_apply P7 _ _ _ v)
  refine (matmul_plain_zero_apply none _ _ _ v).trans (Finset.sum_congr rfl fun k _ => ?_)
  rw [shapeCast_abc_nc_apply _ _ f u k ⟨f.val * 64 + u.val, hr⟩ rfl, shapeCast_self]
  rfl

/-- Entry `(f, u, v)` of the body's result is the cell formula on frame `f` of the encoder block and step `u` of
    the predictor block. -/
theorem pay_cell (P0 : Vec Ideal S1x32x512 .bf16) (P1 : Vec Ideal S1x64x640 .bf16) (P2 : Vec Ideal S512x640 .bf16)
    (P3 : Vec Ideal S640x640 .bf16) (P4 : Vec Ideal S640x1024 .bf16) (P5 : Vec Ideal S640 .f32) (P6 : Vec Ideal S640 .f32)
    (P7 : Vec Ideal S1024 .f32) (f : Fin 32) (u : Fin 64) (v : Fin 1024) :
    k0_pay2 (F := Ideal) P0 P1 P2 P3 P4 P5 P6 P7 (ix3 f u v)
      = cell (fun e => P0 (ix3 (0 : Fin 1) f e)) (fun p => P1 (ix3 (0 : Fin 1) u p)) P2 P5 P3 P6 P4 P7 v := by
  rw [pay_eq_stages, outStage_apply]
  unfold cell act
  refine congrArg clamp15 (congrArg (· + _) (Finset.sum_congr rfl fun j _ => ?_))
  rw [actStage_apply, encStage_apply, predStage_apply]

end Cert.KernelIdeal.Cell

end
-- ==== Proof.JointBlocks.lean ====
/-
  From the grid's blocks to the whole result array.

  The grid has 4 × 8 points `(b, s)`. Point `(b, s)` reads frames `32 s … 32 s + 31` of batch `b` of the encoder
  output, all 64 steps of batch `b` of the predictor output, and the weights and biases whole; it writes the block
  `[b, 32 s … 32 s + 31, all steps, all vocabulary]` of the result. So frame `f` of the point's encoder block is frame
  `32 s + f` of batch `b` of the array, step `u` of its predictor block is step `u` of batch `b`, and entry
  `(0, f, u, v)` of what it writes back lands at `(b, 32 s + f, u, v)`: what the point writes back is its block of
  `joint` of the arrays as the kernel finds them. The 32 blocks tile the result, so the array ends at `joint`.
  The arrays the kernel finds are the arguments themselves: the biases directly, the other five through a change of
  float format made before the call, which on the extended reals is the identity.
-/
import proofs.«107802_j83648783057727_1_alg».proof.Proof.Gen.KernelIdeal.Value
import proofs.«107802_j83648783057727_1_alg».proof.Proof.KernelCell
import proofs.«107802_j83648783057727_1_alg».proof.Proof.JointSpec
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (m : (ℓ : Loc nD τ sig) → Buf (Elt Ideal) ℓ) (ρ : Dev nD → PrngReg)

/-! ## Zero offsets, and the printed index maps over the grid -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- Decided over the 32 points: the encoder window moves with the output on the batch and frame axes, the predictor
    window on the batch axis only, every other block index is zero, and the output's block indices are in range. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_8.index t (0 : Fin 4) ≤ 3 ∧ win0_8.index t (1 : Fin 4) ≤ 7 :=
  (by decide +kernel : ∀ t : Fin grid0.N, _)

/-- Every block position `(b, s)` of the result is some point's. -/
theorem idx_onto : ∀ (q0 : Fin 4) (q1 : Fin 8), ∃ t : Fin cfg0.N, win0_8.index t = ![q0.val, q1.val, 0, 0] :=
  (by decide +kernel : ∀ (q0 : Fin 4) (q1 : Fin 8), ∃ t : Fin grid0.N, win0_8.index t = ![q0.val, q1.val, 0, 0])

/-! ## What a point leaves in the output block, entry by entry -/

/-- Entry `y = (0, f, u, v)` of the output block after the body is the cell formula on frame `f` of the encoder
    block and step `u` of the predictor block (the blocks as variables). -/
theorem out_cell (x0 : Vec Ideal S1x32x512 .bf16) (x1 : Vec Ideal S1x64x640 .bf16) (x2 : Vec Ideal S512x640 .bf16)
    (x3 : Vec Ideal S640 .f32) (x4 : Vec Ideal S640x640 .bf16) (x5 : Vec Ideal S640 .f32)
    (x6 : Vec Ideal S640x1024 .bf16) (x7 : Vec Ideal S1024 .f32) (y : S1x32x64x1024.Idx) :
    out0_8 (F := Ideal) x0 x1 x2 x3 x4 x5 x6 x7 y
      = cell (fun e => x0 (ix3 (0 : Fin 1) (y 1) e)) (fun p => x1 (ix3 (0 : Fin 1) (y 2) p)) x2 x3 x4 x5 x6 x7 (y 3) := by
  obtain ⟨o, f, u, v, rfl⟩ : ∃ (o : Fin 1) (f : Fin 32) (u : Fin 64) (v : Fin 1024), y = ix4 o f u v :=
    ⟨y 0, y 1, y 2, y 3, eq_ix4 y⟩
  have hix : Value.ix8_0 (ix4 o f u v) = ix3 f u v := funext fun a => by
    match a with | ⟨0, _⟩ => rfl | ⟨1, _⟩ => rfl | ⟨2, _⟩ => rfl
  unfold out0_8
  rw [Value.canon8_eq]
  show k0_pay2 _ _ _ _ _ _ _ _ (Value.ix8_0 (ix4 o f u v)) = _
  rw [hix]
  simp only [View.ld_unit_zero (S := S1x32x512) zero3, View.ld_unit_zero (S := S1x64x640) zero3,
    View.ld_unit_zero (S := S512x640) zero2, View.ld_unit_zero (S := S640x640) zero2,
    View.ld_unit_zero (S := S640x1024) zero2, View.ld_unit_zero (S := S640) zero1,
    View.ld_unit_zero (S := S1024) zero1]
  exact Cell.pay_cell x0 x1 x2 x4 x6 x3 x5 x7 f u v

/-! ## The input blocks, read off the arrays the kernel finds -/

/-- The weights and biases are staged whole: their block at every point is the array. -/
theorem blk2_eq (c : Dev nD) (t : Fin cfg0.N) : (iblk m c 2 t : S512x640.Idx → EReal) = V m c main_v2 := by
  obtain ⟨-, -, -, -, -, -, e0, e1, -⟩ := idx_facts t
  funext z
  show V m c main_v2 (((cfg0.win 2).blk t).view.emb z) = V m c main_v2 z
  refine congrArg (V m c main_v2) (funext fun a => Fin.ext ?_)
  match a with
  | ⟨0, _⟩ => show win0_2.index t (0 : Fin 2) * 512 + 1 * (z 0).val = (z 0).val; omega
  | ⟨1, _⟩ => show win0_2.index t (1 : Fin 2) * 640 + 1 * (z 1).val = (z 1).val; omega

theorem blk3_eq (c : Dev nD) (t : Fin cfg0.N) : (iblk m c 3 t : S640.Idx → EReal) = V m c main_arg3 := by
  obtain ⟨-, -, -, -, -, -, -, -, e0, -⟩ := idx_facts t
  funext z
  show V m c main_arg3 (((cfg0.win 3).blk t).view.emb z) = V m c main_arg3 z
  refine congrArg (V m c main_arg3) (funext fun a => Fin.ext ?_)
  match a with
  | ⟨0, _⟩ => show win0_3.index t (0 : Fin 1) * 640 + 1 * (z 0).val = (z 0).val; omega

theorem blk4_eq (c : Dev nD) (t : Fin cfg0.N) : (iblk m c 4 t : S640x640.Idx → EReal) = V m c main_v3 := by
  obtain ⟨-, -, -, -, -, -, -, -, -, e0, e1, -⟩ := idx_facts t
  funext z
  show V m c main_v3 (((cfg0.win 4).blk t).view.emb z) = V m c main_v3 z
  refine congrArg (V m c main_v3) (funext fun a => Fin.ext ?_)
  match a with
  | ⟨0, _⟩ => show win0_4.index t (0 : Fin 2) * 640 + 1 * (z 0).val = (z 0).val; omega
  | ⟨1, _⟩ => show win0_4.index t (1 : Fin 2) * 640 + 1 * (z 1).val = (z 1).val; omega

theorem blk5_eq (c : Dev nD) (t : Fin cfg0.N) : (iblk m c 5 t : S640.Idx → EReal) = V m c main_arg5 := by
  obtain ⟨-, -, -, -, -, -, -, -, -, -, -, e0, -⟩ := idx_facts t
  funext z
  show V m c main_arg5 (((cfg0.win 5).blk t).view.emb z) = V m c main_arg5 z
  refine congrArg (V m c main_arg5) (funext fun a => Fin.ext ?_)
  match a with
  | ⟨0, _⟩ => show win0_5.index t (0 : Fin 1) * 640 + 1 * (z 0).val = (z 0).val; omega

theorem blk6_eq (c : Dev nD) (t : Fin cfg0.N) : (iblk m c 6 t : S640x1024.Idx → EReal) = V m c main_v4 := by
  obtain ⟨-, -, -, -, -, -, -, -, -, -, -, -, e0, e1, -⟩ := idx_facts t
  funext z
  show V m c main_v4 (((cfg0.win 6).blk t).view.emb z) = V m c main_v4 z
  refine congrArg (V m c main_v4) (funext fun a => Fin.ext ?_)
  match a with
  | ⟨0, _⟩ => show win0_6.index t (0 : Fin 2) * 640 + 1 * (z 0).val = (z 0).val; omega
  | ⟨1, _⟩ => show win0_6.index t (1 : Fin 2) * 1024 + 1 * (z 1).val = (z 1).val; omega

theorem blk7_eq (c : Dev nD) (t : Fin cfg0.N) : (iblk m c 7 t : S1024.Idx → EReal) = V m c main_arg7 := by
  obtain ⟨-, -, -, -, -, -, -, -, -, -, -, -, -, -, e0, -⟩ := idx_facts t
  funext z
  show V m c main_arg7 (((cfg0.win 7).blk t).view.emb z) = V m c main_arg7 z
  refine congrArg (V m c main_arg7) (funext fun a => Fin.ext ?_)
  match a with
  | ⟨0, _⟩ => show win0_7.index t (0 : Fin 1) * 1024 + 1 * (z 0).val = (z 0).val; omega

/-- Frame `f` of the point's encoder block is the array's row at the batch and frame where output entry `y` lands. -/
theorem enc_row (c : Dev nD) (t : Fin cfg0.N) (y : S1x32x64x1024.Idx) (e : Fin 512) :
    (iblk m c 0 t : S1x32x512.Idx → EReal) (ix3 (0 : Fin 1) (y 1) e)
      = (V m c main_v0 : S4x256x512.Idx → EReal)
          (ix3 ((((cfg0.win 8).blk t).view.emb y) 0) ((((cfg0.win 8).blk t).view.emb y) 1) e) := by
  obtain ⟨e0, e1, e2, -⟩ := idx_facts t
  have hy0 : (y 0).val < 1 := (y 0).isLt
  show V m c main_v0 (((cfg0.win 0).blk t).view.emb (ix3 (0 : Fin 1) (y 1) e)) = V m c main_v0 _
  refine congrArg (V m c main_v0) (funext fun a => Fin.ext ?_)
  match a with
  | ⟨0, _⟩ =>
    show win0_0.index t (0 : Fin 3) * 1 + 1 * 0 = win0_8.index t (0 : Fin 4) * 1 + 1 * (y 0).val; omega
  | ⟨1, _⟩ =>
    show win0_0.index t (1 : Fin 3) * 32 + 1 * (y 1).val = win0_8.index t (1 : Fin 4) * 32 + 1 * (y 1).val; omega
  | ⟨2, _⟩ => show win0_0.index t (2 : Fin 3) * 512 + 1 * e.val = e.val; omega

/-- Step `u` of the point's predictor block is the array's row at the batch and step where output entry `y` lands. -/
theorem pred_row (c : Dev nD) (t : Fin cfg0.N) (y : S1x32x64x1024.Idx) (p : Fin 640) :
    (iblk m c 1 t : S1x64x640.Idx → EReal) (ix3 (0 : Fin 1) (y 2) p)
      = (V m c main_v1 : S4x64x640.Idx → EReal)
          (ix3 ((((cfg0.win 8).blk t).view.emb y) 0) ((((cfg0.win 8).blk t).view.emb y) 2) p) := by
  obtain ⟨-, -, -, e0, e1, e2, -, -, -, -, -, -, -, -, -, e3, -⟩ := idx_facts t
  have hy0 : (y 0).val < 1 := (y 0).isLt
  show V m c main_v1 (((cfg0.win 1).blk t).view.emb (ix3 (0 : Fin 1) (y 2) p)) = V m c main_v1 _
  refine congrArg (V m c main_v1) (funext fun a => Fin.ext ?_)
  match a with
  | ⟨0, _⟩ =>
    show win0_1.index t (0 : Fin 3) * 1 + 1 * 0 = win0_8.index t (0 : Fin 4) * 1 + 1 * (y 0).val; omega
  | ⟨1, _⟩ =>
    show win0_1.index t (1 : Fin 3) * 64 + 1 * (y 2).val = win0_8.index t (2 : Fin 4) * 64 + 1 * (y 2).val; omega
  | ⟨2, _⟩ => show win0_1.index t (2 : Fin 3) * 640 + 1 * p.val = p.val; omega

/-- The vocabulary coordinate is not moved by the output window. -/
theorem vocab_coord (t : Fin cfg0.N) (y : S1x32x64x1024.Idx) :
    (y 3 : Fin 1024) = (((cfg0.win 8).blk t).view.emb y) 3 := by
  obtain ⟨-, -, -, -, -, -, -, -, -, -, -, -, -, -, -, -, e3, -⟩ := idx_facts t
  apply Fin.ext
  show (y 3).val = win0_8.index t (3 : Fin 4) * 1024 + 1 * (y 3).val
  omega

/-! ## What a point writes back is its block of `joint` -/

/-- `joint` of the arrays as the kernel finds them. -/
abbrev found (c : Dev nD) : S4x256x64x1024.Idx → EReal :=
  joint (V m c main_v0) (V m c main_v1) (V m c main_v2) (V m c main_arg3) (V m c main_v3) (V m c main_arg5)
    (V m c main_v4) (V m c main_arg7)

theorem flushed_eq (c : Dev nD) (t : Fin cfg0.N) :
    (dats m 0 c).flushed 8 t = ((cfg0.win 8).blk t).view.read (Elt Ideal) (found m c) := by
  rw [Value.flushed8]
  funext y
  show out0_8 (iblk m c 0 t) (iblk m c 1 t) (iblk m c 2 t) (iblk m c 3 t) (iblk m c 4 t) (iblk m c 5 t) (iblk m c 6 t)
      (iblk m c 7 t) y = found m c (((cfg0.win 8).blk t).view.emb y)
  refine (out_cell (iblk m c 0 t) (iblk m c 1 t) (iblk m c 2 t) (iblk m c 3 t) (iblk m c 4 t) (iblk m c 5 t)
    (iblk m c 6 t) (iblk m c 7 t) y).trans ?_
  rw [blk2_eq m c t, blk3_eq m c t, blk4_eq m c t, blk5_eq m c t, blk6_eq m c t, blk7_eq m c t,
    funext (enc_row m c t y), funext (pred_row m c t y), vocab_coord t y]
  rfl

/-! ## The blocks tile the result -/

theorem mem_blk (t : Fin cfg0.N) (i : S4x256x64x1024.Idx) :
    i ∈ ((cfg0.win 8).blk t).view.set ↔ ∀ a : Fin 4, win0_8.index t a * S1x32x64x1024.size a ≤ (i a).val
      ∧ (i a).val < win0_8.index t a * S1x32x64x1024.size a + S1x32x64x1024.size a := by
  show i ∈ ((View.whole main_v5).slice (win0_8.rect t)).set ↔ _
  rw [View.set_slice_whole, Rect.mem_set_unit]
  exact Iff.rfl

/-- Index `(b, r, u, v)` is in the block of the point at block position `(b, r / 32)`. -/
theorem cover (i : S4x256x64x1024.Idx) :
    ∃ t : Fin cfg0.N, (cfg0.win 8).flush t = true ∧ i ∈ ((cfg0.win 8).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_8.index t (0 : Fin 4) = (i 0).val := congrFun ht 0
  have q1 : win0_8.index t (1 : Fin 4) = (i 1).val / 32 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 32 ≤ (i 1).val ∧ (i 1).val < win0_8.index t (1 : Fin 4) * 32 + 32; omega
  | ⟨2, _⟩ => show win0_8.index t (2 : Fin 4) * 64 ≤ (i 2).val ∧ (i 2).val < win0_8.index t (2 : Fin 4) * 64 + 64; omega
  | ⟨3, _⟩ =>
    show win0_8.index t (3 : Fin 4) * 1024 ≤ (i 3).val ∧ (i 3).val < win0_8.index t (3 : Fin 4) * 1024 + 1024; omega

/-! ## The arrays the kernel finds are the arguments -/

theorem found_v0 (c : Dev nD) : (V m c main_v0 : S4x256x512.Idx → EReal) = m ((c : Thread nD τ).loc main_arg0) := by
  dsimp only [Gen.V, Gen.hostOps0]; after_results; rfl
theorem found_v1 (c : Dev nD) : (V m c main_v1 : S4x64x640.Idx → EReal) = m ((c : Thread nD τ).loc main_arg1) := by
  dsimp only [Gen.V, Gen.hostOps0]; after_results; rfl
theorem found_v2 (c : Dev nD) : (V m c main_v2 : S512x640.Idx → EReal) = m ((c : Thread nD τ).loc main_arg2) := by
  dsimp only [Gen.V, Gen.hostOps0]; after_results; rfl
theorem found_v3 (c : Dev nD) : (V m c main_v3 : S640x640.Idx → EReal) = m ((c : Thread nD τ).loc main_arg4) := by
  dsimp only [Gen.V, Gen.hostOps0]; after_results; rfl
theorem found_v4 (c : Dev nD) : (V m c main_v4 : S640x1024.Idx → EReal) = m ((c : Thread nD τ).loc main_arg6) := by
  dsimp only [Gen.V, Gen.hostOps0]; after_results; rfl

/-- `joint` of the arrays the kernel finds is `joint` of the arguments. -/
theorem found_eq (c : Dev nD) :
    found m c = joint (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold found
  rw [found_v0 m c, found_v1 m c, found_v2 m c, found_v3 m c, found_v4 m c, V_main_arg3 m c, V_main_arg5 m c,
    V_main_arg7 m c]

/-! ## The result array after the run -/

theorem final (c : Dev nD) :
    (dats m 0 c).arrAt 8 cfg0.N = joint (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  ((dats m 0 c).arrAt_eq_of_cover 8 (found m c) (fun t _ => flushed_eq m c t) cover).trans (found_eq m c)

/-- The kernel's run: the result array ends at `joint` of the arguments, which end unchanged. -/
theorem run : θ_run defs (onTc (τ := τ) (main (F := Ideal))) ⟨m, fun _ => 0, ρ⟩ fun r => ∀ c : Dev nD,
      r.2.mem ((c : Thread nD τ).loc main_v5) = joint (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.lean ====
/-
  The kernel and the reference compute the same array on the extended reals.

  Both programs take an encoder output `[4, 256, 512]`, a predictor output `[4, 64, 640]`, three weight matrices and
  three biases, and return `[4, 256, 64, 1024]`: for every batch `b`, encoder frame `t`, predictor step `u` and
  vocabulary entry `v`,

      clamp₍₋₁₅,₁₅₎ ( Σ_j tanh( (enc[b,t,·] · W_enc + b_enc)_j + (pred[b,u,·] · W_pred + b_pred)_j ) · W_out[j,v] + b_out[v] ).

  The reference evaluates this with whole-array operations (contractions, broadcasts, `tanh`, a clamp by a maximum
  and a minimum). The kernel evaluates it block by block over a 4 × 8 grid: a grid point takes 32 frames of one batch,
  that batch's 64 steps, and all weights, pairs every frame with every step, and writes the 32 × 64 × 1024 block of
  logits; before the call the float inputs change format, which on the extended reals changes nothing. No algebraic law is
  needed to join the two sides — each sum has the same terms in the same order, the clamp bounds are the same two
  bit patterns and the maximum and minimum are taken in the same order — so the finiteness of the inputs is never used:
  the two sides are the same function `Cert.Joint.joint` of the arguments, index by index.

  The pieces: `Cert.Joint` (the function); `Cert.ReferenceIdeal.RefValue` (the reference's result is it);
  `Cert.KernelIdeal.Cell` (one grid point computes it on its blocks); `Cert.KernelIdeal.Blocks` (the blocks tile the
  result, so the kernel's result array is it). The three frame claims are the generated frame runs; the kernel's
  idealization rewrote nothing, so `preserves` is trivial.
-/
import proofs.«107802_j83648783057727_1_alg».proof.Defs
import proofs.«107802_j83648783057727_1_alg».proof.Proof.Gen.Kernel
import proofs.«107802_j83648783057727_1_alg».proof.Proof.Gen.Kernel.Skeleton
import proofs.«107802_j83648783057727_1_alg».proof.Proof.Gen.Kernel.Launch
import proofs.«107802_j83648783057727_1_alg».proof.Proof.Gen.Kernel.Points
import proofs.«107802_j83648783057727_1_alg».proof.Proof.Gen.Kernel.Frame
import proofs.«107802_j83648783057727_1_alg».proof.Proof.Gen.KernelIdeal
import proofs.«107802_j83648783057727_1_alg».proof.Proof.Gen.KernelIdeal.Skeleton
import proofs.«107802_j83648783057727_1_alg».proof.Proof.Gen.KernelIdeal.Launch
import proofs.«107802_j83648783057727_1_alg».proof.Proof.Gen.KernelIdeal.Points
import proofs.«107802_j83648783057727_1_alg».proof.Proof.Gen.KernelIdeal.Frame
import proofs.«107802_j83648783057727_1_alg».proof.Proof.Gen.KernelIdeal.Value
import proofs.«107802_j83648783057727_1_alg».proof.Proof.Gen.ReferenceIdeal
import proofs.«107802_j83648783057727_1_alg».proof.Proof.Gen.ReferenceIdeal.Run
import proofs.«107802_j83648783057727_1_alg».proof.Proof.Gen.ReferenceIdeal.Read
import proofs.«107802_j83648783057727_1_alg».proof.Proof.Gen.Pre_finite_inputs
import proofs.«107802_j83648783057727_1_alg».proof.Proof.JointSpec
import proofs.«107802_j83648783057727_1_alg».proof.Proof.RefJoint
import proofs.«107802_j83648783057727_1_alg».proof.Proof.KernelCell
import proofs.«107802_j83648783057727_1_alg».proof.Proof.JointBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at `joint` of its arguments and the
    reference's at `joint` of its own, which are the same arrays. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq_joint,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
